-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S128x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S128x128 : Shape := ⟨2, ![128, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S262144x128 .f32) (main_arg1 : FVec F S128x128 .f32) (main_arg2 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S262144x128 : Shape := ⟨2, ![262144, 128]⟩
abbrev S128x128 : Shape := ⟨2, ![128, 128]⟩
abbrev S128 : Shape := ⟨1, ![128]⟩
abbrev S16384x128 : Shape := ⟨2, ![16384, 128]⟩
abbrev S2048x128 : Shape := ⟨2, ![2048, 128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128, .f32⟩
  | .hbm, ⟨3, _⟩ => ⟨S262144x128, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S128, .f32⟩
  | .local _ .vmem, ⟨4, _⟩ => ⟨S16384x128, .f32⟩
  | .local _ .vmem, ⟨5, _⟩ => ⟨S16384x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c8_i32 : BitVec 32 := 8#32
  let v13 : BitVec 32 := Scalar.addi c0_i32 c8_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2048_i32 : BitVec 32 := 2048#32
  let v14 : BitVec 32 := Scalar.muli arg5 c2048_i32
  v14
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v14 : BitVec 32 := Scalar.muli arg5 c2048_i32
  let v15 : BitVec 32 := v14
  let v16 : Index := Scalar.indexCast v15
  let c0_3 : Index := 0#32
  ![v16.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  h_S2048x128 : 0 < S2048x128.numel
  shapeCasts_S128_S1x128 : S128.ShapeCasts S1x128
  broadcasts_S1x128_S2048x128 : S1x128.Broadcasts S2048x128
  dot_S2048x128_S128x128_S2048x128_1_0_0_1_n_n_wf : DotDims.WF S2048x128 S128x128 S2048x128 [1] [0] [0] [1] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S262144x128.size a
  hwx0_3 : ∀ i : grid0.Coords, EltTy.bits .f32 = 32 ∨ (Rect.block (s := S262144x128) S16384x128.size (cc0_transform_3 i) (hinb0_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S128x128 : Shape := ⟨2, ![128, 128]⟩
abbrev S128 : Shape := ⟨1, ![128]⟩
abbrev S1x128 : Shape := ⟨2, ![1, 128]⟩

abbrev nBuf : Space → Nat
  | .hbm => 8
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S262144x128, .f32⟩
  | .hbm, ⟨5, _⟩ => ⟨S1x128, .f32⟩
  | .hbm, ⟨6, _⟩ => ⟨S262144x128, .f32⟩
  | .hbm, ⟨7, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S262144x128_S128x128_S262144x128_1_0_0_1_n_n_wf : DotDims.WF S262144x128 S128x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf

class Facts : Prop extends Facts₀ where

variable [Facts]
-- ==== Proof.SlicePayload.lean ====
/-
  One trip's stored value, read at an entry. The trip takes a slice `xs` of 2048 rows of the staged block of `x`,
  the whole 128 × 128 weights `w` and the bias `b`, and stores

      (xs · s(w)) + rows of b,        s(a) = a where |a| > 0 fails, else -1 if a < 0, else 1,

  the product taken into a zero accumulator and the two roundings to bf16 the identity on the extended reals.
  At entry `(p, q)` this is the sum over `k` of `xs[p, k] · sign(w[k, q])` plus `b[q]`: the select chain `s` is the
  order's sign at every extended real, the contraction runs over axis 1 of the slice and axis 0 of the weights, and
  the bias row, first given a leading unit axis and then repeated down the rows, reads its entry `q`.
-/
import proofs.«108823_j20298015441388_2_alg».proof.Proof.Gen.KernelIdeal.Skeleton
import Idealize.ShloMosaic.PureOps.Ideal.Laws
import Idealize.ShloMosaic.Lib.Pipeline.Value
import Idealize.ShloMosaic.Lib.ValueIdx

noncomputable section

open scoped BigOperators

namespace Cert.KernelIdeal.SliceValue

open Cert.KernelIdeal Cert.KernelIdeal.Gen
open Idealize.ShloMosaic Idealize.ShloMosaic.ValueIdx

/-- The bias as the trip adds it: `b` given a leading unit axis, then repeated down 2048 rows, is `b[q]` at `(p, q)`. -/
theorem bias_rows_apply (b : Vec Ideal S128 .f32) (p : Fin 2048) (q : Fin 128) :
    broadcastTo S2048x128 (shapeCast S1x128 b shapeCasts_S128_S1x128) broadcasts_S1x128_S2048x128 (ix2 p q)
      = b (ix1 q) := by
  refine (broadcastTo_apply _ broadcasts_S1x128_S2048x128 (ix2 p q) (ix2 (0 : Fin 1) q) (fun a => ?_)).trans ?_
  · match a with
    | ⟨0, _⟩ => rfl
    | ⟨1, _⟩ => rfl
  · refine shapeCast_apply b shapeCasts_S128_S1x128 (ix2 (0 : Fin 1) q) (ix1 q) ?_
    rw [Shape.rowMajor_val_one, Shape.rowMajor_val_two]
    show q.val = 0 * 128 + q.val
    omega

/-- The weights as the trip multiplies by them: the printed select chain, rounded to bf16, is the sign of the entry. -/
theorem signed_weights_apply (w : FVec Ideal S128x128 .f32) (j : S128x128.Idx) :
    (truncf .bf16 (select (cmpf .ogt (absf w) (broadcast S128x128 (Scalar.ofBits .f32 0x00000000#32)))
        (select (cmpf .olt w (constant S128x128 .f32 0x00000000#32)) (constant S128x128 .f32 0xBF800000#32)
          (constant S128x128 .f32 0x3F800000#32)) w) bitsLt_bf16_f32 : FVec Ideal S128x128 .bf16) j
      = Ideal.sign (w j) :=
  Ideal.jnp_sign_eq_sign_f32 (w j)

/-- Which entries of the two operands the product's term `k` at `(p, q)` reads, axis by axis: the left operand at
    row `p` and the contracted coordinate, the right operand at the contracted coordinate and column `q`. -/
theorem left_row (i : S2048x128.Idx) (k : dot_S2048x128_S128x128_S2048x128_1_0_0_1_n_n.contr.Idx) :
    (dot_S2048x128_S128x128_S2048x128_1_0_0_1_n_n.lhsIdx i k 0).val = (i 0).val := by
  unfold DotDims.lhsIdx
  rw [dif_neg (show ¬(0 : Fin S2048x128.rank) ∈ dot_S2048x128_S128x128_S2048x128_1_0_0_1_n_n.lhsBatch by decide),
    dif_pos (show (0 : Fin S2048x128.rank) ∈ dot_S2048x128_S128x128_S2048x128_1_0_0_1_n_n.lhsNonContracting by decide)]
  rfl
theorem left_col (i : S2048x128.Idx) (k : dot_S2048x128_S128x128_S2048x128_1_0_0_1_n_n.contr.Idx) :
    (dot_S2048x128_S128x128_S2048x128_1_0_0_1_n_n.lhsIdx i k 1).val = (k ⟨0, by decide⟩).val :=
  dot_S2048x128_S128x128_S2048x128_1_0_0_1_n_n.lhsIdx_val_of_single rfl i k
theorem right_row (i : S2048x128.Idx) (k : dot_S2048x128_S128x128_S2048x128_1_0_0_1_n_n.contr.Idx) :
    (dot_S2048x128_S128x128_S2048x128_1_0_0_1_n_n.rhsIdx i k 0).val = (k ⟨0, by decide⟩).val :=
  dot_S2048x128_S128x128_S2048x128_1_0_0_1_n_n.rhsIdx_val_of_single rfl i k
theorem right_col (i : S2048x128.Idx) (k : dot_S2048x128_S128x128_S2048x128_1_0_0_1_n_n.contr.Idx) :
    (dot_S2048x128_S128x128_S2048x128_1_0_0_1_n_n.rhsIdx i k 1).val = (i 1).val := by
  unfold DotDims.rhsIdx
  rw [dif_neg (show ¬(1 : Fin S128x128.rank) ∈ dot_S2048x128_S128x128_S2048x128_1_0_0_1_n_n.rhsBatch by decide),
    dif_pos (show (1 : Fin S128x128.rank) ∈ dot_S2048x128_S128x128_S2048x128_1_0_0_1_n_n.rhsNonContracting by decide)]
  rfl

/-- A 2048 × 128 by 128 × 128 product into a zero accumulator, at `(p, q)`: the sum over the shared axis. -/
theorem product_apply {φ₁ φ₂ : FTy} (l : FVec Ideal S2048x128 φ₁) (r : FVec Ideal S128x128 φ₂) (p : Fin 2048) (q : Fin 128) :
    matmul dot_S2048x128_S128x128_S2048x128_1_0_0_1_n_n none l r (constant S2048x128 .f32 0x00000000#32) (ix2 p q)
      = ∑ k : Fin 128, l (ix2 p k) * r (ix2 k q) := by
  show FloatOps.matmul dot_S2048x128_S128x128_S2048x128_1_0_0_1_n_n none l r (constant S2048x128 .f32 0x00000000#32) (ix2 p q) = _
  rw [Ideal.matmul_constant_zero_apply,
    ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q)
      ((contrEquiv1 dot_S2048x128_S128x128_S2048x128_1_0_0_1_n_n 128 rfl rfl).symm k) = ix2 p k :=
    funext fun a => Fin.ext (by
      match a with
      | ⟨0, _⟩ => exact left_row _ _
      | ⟨1, _⟩ => exact (left_col _ _).trans hk)
  have er : dot_S2048x128_S128x128_S2048x128_1_0_0_1_n_n.rhsIdx (ix2 p q)
      ((contrEquiv1 dot_S2048x128_S128x128_S2048x128_1_0_0_1_n_n 128 rfl rfl).symm k) = ix2 k q :=
    funext fun a => Fin.ext (by
      match a with
      | ⟨0, _⟩ => exact (right_row _ _).trans hk
      | ⟨1, _⟩ => exact right_col _ _)
  rw [el, er]

/-- The trip's stored value at entry `(p, q)`: the slice's row `p` against the signs of the weights' column `q`, plus
    `b[q]`. -/
theorem stored_apply (w : Vec Ideal S128x128 .f32) (b : Vec Ideal S128 .f32) (xs : Vec Ideal S2048x128 .f32)
    (p : Fin 2048) (q : Fin 128) :
    k0_pay1 (F := Ideal) w b xs (ix2 p q)
      = (∑ k : Fin 128, xs (ix2 p k) * Ideal.sign (w (ix2 k q))) + b (ix1 q) := by
  unfold k0_pay1
  refine (addf_apply _ _ (ix2 p q)).trans ?_
  refine congrArg₂ (· + ·) ?_ (bias_rows_apply b p q)
  refine (product_apply _ _ p q).trans ?_
  refine Finset.sum_congr rfl fun k _ => ?_
  exact congrArg₂ (· * ·) rfl (signed_weights_apply w (ix2 k q))

end Cert.KernelIdeal.SliceValue

end
-- ==== Proof.BlockValue.lean ====
/-
  What one grid point leaves in its staged output block. The body loads the weights `w` and the bias `b` once and
  then, in 8 trips, stores into rows `2048·k … 2048·k + 2047` of the 16384-row block the value computed from the same
  rows of the staged block `xb` of `x`. The 8 stored slices tile the block, and each is the restriction to its rows
  of ONE function of the block index,

      blockDense xb w b (r, c) = (Σ_k xb[r, k] · sign(w[k, c])) + b[c],        r < 16384, c < 128,

  because a slice's row `p` is the block's row `2048·k + p` and its columns are the block's columns (the slice
  starts at column 0). So the block the point leaves is `blockDense` of the three staged inputs.
-/
import proofs.«108823_j20298015441388_2_alg».proof.Proof.Gen.KernelIdeal.Frame
import proofs.«108823_j20298015441388_2_alg».proof.Proof.SlicePayload

set_option maxRecDepth 16384

noncomputable section

open scoped BigOperators

namespace Cert.KernelIdeal.BlockValue

open Cert.KernelIdeal Cert.KernelIdeal.Gen
open Idealize.ShloMosaic Idealize.ShloMosaic.TcCoe Idealize.ShloMosaic.ValueIdx Idealize.SL.Sem

/-- The signed-weight dense layer on one staged block of 16384 rows. -/
def blockDense (xb : Vec Ideal S16384x128 .f32) (w : Vec Ideal S128x128 .f32) (b : Vec Ideal S128 .f32) :
    Vec Ideal S16384x128 .f32 :=
  fun y => (∑ k : Fin 128, xb (ix2 (y 0) k) * Ideal.sign (w (ix2 k (y 1)))) + b (ix1 (y 1))

section Lists

variable {F : FTy → Type} [FloatOps F]

theorem zeros2 : (![0, 0] : Fin 2 → Nat) = fun _ => 0 :=
  funext fun a => by match a with | ⟨0, _⟩ => rfl | ⟨1, _⟩ => rfl
theorem zeros1 : (![0] : Fin 1 → Nat) = fun _ => 0 :=
  funext fun a => by match a with | ⟨0, _⟩ => rfl

/-- The stores the body makes at a grid point, last first: those of the loop's trips, run on the whole weights, the
    whole bias and the staged block of `x`. -/
theorem run_stores (c : Dev nD) (i : grid0.Coords) (arg1 : Memref sig .tc .vmem S16384x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S16384x128 .f32) (harg4 : arg4.IsWhole)
    (x0 : Vec F S16384x128 .f32) (x1 : Vec F S128x128 .f32) (x2 : Vec F S128 .f32) :
    (kernelRun0_A c i arg1 harg1 arg2 harg2 arg3 harg3 arg4 harg4 x0 x1 x2).1
      = pb_k0_t1 (F := F) Variants.none c none i arg1 harg1 arg2 harg2 arg3 harg3 arg4 harg4 x1 x2 (harg1.unread x0) k0_t1_loop.trips := by
  unfold kernelRun0_A
  dsimp only
  rw [View.readAt_eq_ld, View.readAt_eq_ld, harg2.read_unread, harg3.read_unread,
    View.ld_unit_zero (S := S128x128) zeros2, View.ld_unit_zero (S := S128) zeros1]

/-- Trip `k` makes one store: at rows `k0_off1 k` of the block, the trip's value of the weights, the bias and the same
    rows of the block of `x`. -/
theorem trip_store (𝒱 : Variants) (c : Dev nD) (bd : Option 𝒱.V) (i : grid0.Coords) (arg1 : Memref sig .tc .vmem S16384x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S16384x128 .f32) (harg4 : arg4.IsWhole)
    (v0 : Vec F S128x128 .f32) (v12 : Vec F S128 .f32) (X : BufTy.Contents (Elt F) arg1.view.ty) (k : Fin k0_t1_loop.trips) :
    tripL_k0_t1 (F := F) 𝒱 c bd i arg1 harg1 arg2 harg2 arg3 harg3 arg4 harg4 v0 v12 X k
      = [⟨Rect.unit (s := S16384x128) (k0_off1 k) S2048x128.size (k0_off1_inb k),
          k0_pay1 v0 v12 (View.ld (arg1.view.read (Elt F) X) (Rect.unit (s := S16384x128) (k0_off1 k) S2048x128.size (k0_off1_inb k)))⟩] := by
  unfold tripL_k0_t1 trip_k0_t1
  rfl

end Lists

/-- A slice stored at rows `off 0 …` and column 0 holds, at its entry `y`, the block function at the block index of `y`. -/
theorem slice_is_block (xb : Vec Ideal S16384x128 .f32) (w : Vec Ideal S128x128 .f32) (b : Vec Ideal S128 .f32)
    (off : Fin 2 → Nat) (inb : ∀ a, off a + S2048x128.size a ≤ S16384x128.size a) (h1 : off 1 = 0) (y : S2048x128.Idx) :
    k0_pay1 (F := Ideal) w b (View.ld xb (Rect.unit (s := S16384x128) off S2048x128.size inb)) y
      = blockDense xb w b ((Rect.unit (s := S16384x128) off S2048x128.size inb).emb y) := by
  obtain ⟨p, q, rfl⟩ : ∃ (p : Fin 2048) (q : Fin 128), y = ix2 p q := ⟨y 0, y 1, eq_ix2 y⟩
  rw [SliceValue.stored_apply]
  unfold blockDense
  have ecol : ((Rect.unit (s := S16384x128) off S2048x128.size inb).emb (ix2 p q)) 1 = q :=
    Fin.ext (by show off 1 + 1 * q.val = q.val; omega)
  have erow : ∀ k : Fin 128, (Rect.unit (s := S16384x128) off S2048x128.size inb).emb (ix2 p k)
      = ix2 (((Rect.unit (s := S16384x128) off S2048x128.size inb).emb (ix2 p q)) 0) k := fun k =>
    funext fun a => Fin.ext (by
      match a with
      | ⟨0, _⟩ => rfl
      | ⟨1, _⟩ => show off 1 + 1 * k.val = k.val; omega)
  rw [ecol]
  refine congrArg₂ (· + ·) (Finset.sum_congr rfl fun k _ => ?_) rfl
  exact congrArg₂ (· * ·) (congrArg xb (erow k)) rfl

/-- Every store of the trips before `n` holds the block function on its rows. -/
theorem stores_are_block (c : Dev nD) (i : grid0.Coords) (arg1 : Memref sig .tc .vmem S16384x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S16384x128 .f32) (harg4 : arg4.IsWhole)
    (x0 : Vec Ideal S16384x128 .f32) (x1 : Vec Ideal S128x128 .f32) (x2 : Vec Ideal S128 .f32) :
    ∀ n : ℕ, ∀ pc ∈ pb_k0_t1 (F := Ideal) Variants.none c none i arg1 harg1 arg2 harg2 arg3 harg3 arg4 harg4 x1 x2 (harg1.unread x0) n,
      ∀ y : pc.1.shape.Idx, pc.2 y = blockDense x0 x1 x2 (pc.1.emb y)
  | 0 => fun pc h => absurd h (by rw [pb_k0_t1.eq_1]; exact List.not_mem_nil)
  | n + 1 => fun pc h => by
    rw [pb_k0_t1.eq_2] at h
    unfold pb_k0_t1Step at h
    split at h
    · rename_i hn
      rcases List.mem_append.mp h with h | h
      · rw [trip_store, List.mem_singleton] at h
        subst h
        intro y
        have h1 : k0_off1 ⟨n, hn⟩ 1 = 0 := by rw [k0_off1_eq]; rfl
        show k0_pay1 (F := Ideal) x1 x2 (View.ld (arg1.view.read (Elt Ideal) (harg1.unread x0))
              (Rect.unit (s := S16384x128) (k0_off1 ⟨n, hn⟩) S2048x128.size (k0_off1_inb ⟨n, hn⟩))) y
            = blockDense x0 x1 x2 ((Rect.unit (s := S16384x128) (k0_off1 ⟨n, hn⟩) S2048x128.size (k0_off1_inb ⟨n, hn⟩)).emb y)
        rw [harg1.read_unread]
        exact slice_is_block x0 x1 x2 _ _ h1 y
      · exact stores_are_block c i arg1 harg1 arg2 harg2 arg3 harg3 arg4 harg4 x0 x1 x2 n pc h
    · exact stores_are_block c i arg1 harg1 arg2 harg2 arg3 harg3 arg4 harg4 x0 x1 x2 n pc h

/-- The block a grid point leaves in the output's staging buffer is the signed-weight dense layer of the staged block
    of `x`, the weights and the bias. -/
theorem out_block (c : Dev nD) (i : grid0.Coords) (arg1 : Memref sig .tc .vmem S16384x128 .f32) (harg1 : arg1.IsWhole) (arg2 : Memref sig .tc .vmem S128x128 .f32) (harg2 : arg2.IsWhole) (arg3 : Memref sig .tc .vmem S128 .f32) (harg3 : arg3.IsWhole) (arg4 : Memref sig .tc .vmem S16384x128 .f32) (harg4 : arg4.IsWhole)
    (x0 : Vec Ideal S16384x128 .f32) (x1 : Vec Ideal S128x128 .f32) (x2 : Vec Ideal S128 .f32) :
    out0_A_3 (F := Ideal) c i arg1 harg1 arg2 harg2 arg3 harg3 arg4 harg4 x0 x1 x2 = blockDense x0 x1 x2 := by
  unfold out0_A_3
  rw [View.read_writes_eq_canon _ _ _ (cover0_A_3 c i arg1 harg1 arg2 harg2 arg3 harg3 arg4 harg4 x0 x1 x2)]
  funext y
  refine View.canon_apply_of_pieces (blockDense x0 x1 x2) _ ?_ y (cover0_A_3 c i arg1 harg1 arg2 harg2 arg3 harg3 arg4 harg4 x0 x1 x2 y)
  rw [run_stores]
  exact stores_are_block c i arg1 harg1 arg2 harg2 arg3 harg3 arg4 harg4 x0 x1 x2 _

end Cert.KernelIdeal.BlockValue

end
-- ==== Proof.DenseSpec.lean ====
/-
  The result both programs compute, as one function of the argument arrays: a dense layer whose weights are
  replaced by their signs,

      out[r, c] = (Σ_k x[r, k] · sign(w[k, c])) + b[c]        r < 262144, c < 128, k < 128,

  on the extended reals, where `sign` is -1 below zero, 1 above zero and 0 at zero (the infinities included).
  No program is mentioned here; the shapes are literal and the indices are built from coordinates.
-/
import Idealize.ShloMosaic.PureOps.Ideal
import Idealize.ShloMosaic.PureOps.Ideal.Laws
import Idealize.ShloMosaic.Lib.ValueIdx

noncomputable section

open scoped BigOperators

namespace Cert.DenseSpec

open Idealize.ShloMosaic Idealize.ShloMosaic.ValueIdx

/-- Entry `(r, c)` of the signed-weight dense layer: row `r` of `x` against column `c` of `sign w`, plus `b c`. -/
def dense (x : FVec Ideal ⟨2, ![262144, 128]⟩ .f32) (w : FVec Ideal ⟨2, ![128, 128]⟩ .f32)
    (b : FVec Ideal ⟨1, ![128]⟩ .f32) : FVec Ideal ⟨2, ![262144, 128]⟩ .f32 :=
  fun i => (∑ k : Fin 128, x (ix2 (i 0) k) * Ideal.sign (w (ix2 k (i 1)))) + b (ix1 (i 1))

theorem dense_apply (x : FVec Ideal ⟨2, ![262144, 128]⟩ .f32) (w : FVec Ideal ⟨2, ![128, 128]⟩ .f32)
    (b : FVec Ideal ⟨1, ![128]⟩ .f32) (r : Fin 262144) (c : Fin 128) :
    dense x w b (ix2 r c) = (∑ k : Fin 128, x (ix2 r k) * Ideal.sign (w (ix2 k c))) + b (ix1 c) := rfl

end Cert.DenseSpec

end
-- ==== Proof.KernelDense.lean ====
/-
  The kernel's result array is the signed-weight dense layer of its arguments. Grid point `t` (of 16) stages rows
  `16384·t … 16384·t + 16383` of `x` and all of the weights and the bias, and writes back, to the same rows of the
  result, the block its body leaves: the dense layer of those staged blocks. Since a block's row `r` is the array's
  row `16384·t + r`, the weights' and the bias's blocks are the whole arrays, and all columns are kept, the block
  written back is the restriction to those rows of ONE function of the argument arrays,

      dense x w b (r, c) = (Σ_k x[r, k] · sign(w[k, c])) + b[c],

  and the 16 blocks tile the result (row `r` lies in block `r / 16384`). So the array ends holding `dense x w b`.
-/
import proofs.«108823_j20298015441388_2_alg».proof.Proof.Gen.KernelIdeal.Value
import proofs.«108823_j20298015441388_2_alg».proof.Proof.BlockValue
import proofs.«108823_j20298015441388_2_alg».proof.Proof.DenseSpec

set_option maxRecDepth 16384

noncomputable section

open scoped BigOperators

namespace Cert.KernelIdeal.DenseValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the 16 grid points: `x`'s block and the result's block are block `t` of rows and the
    only block of columns; the weights' and the bias's blocks are the only ones. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the dense layer of the argument arrays as the region finds them. -/
theorem flushed_eq (c : Dev nD) (t : Fin cfg0.N) :
    (dats m 0 c).flushed 3 t = ((cfg0.win 3).blk t).view.read (Elt Ideal)
      (Cert.DenseSpec.dense (V m c main_arg0) (V m c main_arg1) (V m c main_arg2)) := by
  rw [flushed3_A, BlockValue.out_block]
  obtain ⟨a0, a1, w0, w1, b0, o0, o1⟩ := index_facts t
  funext j
  show BlockValue.blockDense (iblk m c 0 t) (iblk m c 1 t) (iblk m c 2 t) j
    = Cert.DenseSpec.dense (V m c main_arg0) (V m c main_arg1) (V m c main_arg2) (((cfg0.win 3).blk t).view.emb j)
  have hj0 : (j 0).val < 16384 := (j 0).isLt
  have hj1 : (j 1).val < 128 := (j 1).isLt
  have ex : ∀ k : Fin 128, ((cfg0.win 0).blk t).view.emb (ix2 (j 0) k)
      = ix2 ((((cfg0.win 3).blk t).view.emb j) 0) k := fun k => by
    funext a; apply Fin.ext
    match a with
    | ⟨0, _⟩ => show win0_0.index t (0 : Fin 2) * 16384 + 1 * (j 0).val = win0_3.index t (0 : Fin 2) * 16384 + 1 * (j 0).val; omega
    | ⟨1, _⟩ => show win0_0.index t (1 : Fin 2) * 128 + 1 * k.val = k.val; omega
  have ew : ∀ k : Fin 128, ((cfg0.win 1).blk t).view.emb (ix2 k (j 1))
      = ix2 k ((((cfg0.win 3).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_3.index t (1 : Fin 2) * 128 + 1 * (j 1).val; omega
  have eb : ((cfg0.win 2).blk t).view.emb (ix1 (j 1)) = ix1 ((((cfg0.win 3).blk t).view.emb j) 1) := by
    funext a; apply Fin.ext
    match a with
    | ⟨0, _⟩ => show win0_2.index t (0 : Fin 1) * 128 + 1 * (j 1).val = win0_3.index t (1 : Fin 2) * 128 + 1 * (j 1).val; omega
  unfold BlockValue.blockDense Cert.DenseSpec.dense
  refine congrArg₂ (· + ·) (Finset.sum_congr rfl fun k _ => ?_) ?_
  · refine congrArg₂ (· * ·) ?_ (congrArg Ideal.sign ?_)
    · show V m c main_arg0 (((cfg0.win 0).blk t).view.emb (ix2 (j 0) k)) = _
      rw [ex k]; rfl
    · show V m c main_arg1 (((cfg0.win 1).blk t).view.emb (ix2 k (j 1))) = _
      rw [ew k]; rfl
  · show V m c main_arg2 (((cfg0.win 2).blk t).view.emb (ix1 (j 1))) = _
    rw [eb]; rfl

/-- An index of the result is in point `t`'s block iff each coordinate is in the block's range on its axis. -/
theorem mem_block (t : Fin cfg0.N) (i : S262144x128.Idx) :
    i ∈ ((cfg0.win 3).blk t).view.set ↔ ∀ a : Fin 2, win0_3.index t a * S16384x128.size a ≤ (i a).val
      ∧ (i a).val < win0_3.index t a * S16384x128.size a + S16384x128.size a := by
  show i ∈ ((View.whole main_v0).slice (win0_3.rect t)).set ↔ _
  rw [View.set_slice_whole, Rect.mem_set_unit]
  exact Iff.rfl

/-- Every index of the result lies in the block of the point its row names. -/
theorem covered (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  have hN : cfg0.N = 16 := N_0
  have ht : (i 0).val / 16384 < cfg0.N := by rw [hN]; omega
  obtain ⟨-, -, -, -, -, o0, o1⟩ := index_facts ⟨(i 0).val / 16384, ht⟩
  have o0' : win0_3.index ⟨(i 0).val / 16384, ht⟩ (0 : Fin 2) = (i 0).val / 16384 := o0
  refine ⟨⟨(i 0).val / 16384, ht⟩, flush0_3 _, ?_⟩
  rw [mem_block]
  intro a
  match a with
  | ⟨0, _⟩ =>
    show win0_3.index ⟨(i 0).val / 16384, ht⟩ (0 : Fin 2) * 16384 ≤ (i 0).val
      ∧ (i 0).val < win0_3.index ⟨(i 0).val / 16384, ht⟩ (0 : Fin 2) * 16384 + 16384
    omega
  | ⟨1, _⟩ =>
    show win0_3.index ⟨(i 0).val / 16384, ht⟩ (1 : Fin 2) * 128 ≤ (i 1).val
      ∧ (i 1).val < win0_3.index ⟨(i 0).val / 16384, ht⟩ (1 : Fin 2) * 128 + 128
    omega

/-- The result array after the run: the dense layer of the arguments as launched. -/
theorem final (c : Dev nD) : (dats m 0 c).arrAt 3 cfg0.N
    = Cert.DenseSpec.dense (m ((c : Thread nD τ).loc main_arg0)) (m ((c : Thread nD τ).loc main_arg1))
        (m ((c : Thread nD τ).loc main_arg2)) :=
  (dats m 0 c).arrAt_eq_of_cover 3 _ (fun t _ => flushed_eq m c t) covered

/-- The kernel's run with the result named: every weakly fair execution ends with the result at the dense layer of the
    arguments and the arguments unchanged. -/
theorem run : θ_run defs (onTc (τ := τ) (main (F := Ideal))) ⟨m, fun _ => 0, ρ⟩ fun r => ∀ c : Dev nD,
      r.2.mem ((c : Thread nD τ).loc main_v0)
        = Cert.DenseSpec.dense (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.DenseValue

end
-- ==== Proof.RefDense.lean ====
/-
  The reference computes the signed-weight dense layer: its last stage, read one operation at a time, is at
  every index `(r, c)` the sum over `k` of `x[r, k] · sign(w[k, c])` plus `b[c]` — the host's `sign` is the order's
  sign on the extended reals, its `dot_general` contracts `x`'s axis 1 with the weights' axis 0, and the bias is
  broadcast first to one row and then down all rows.
-/
import proofs.«108823_j20298015441388_2_alg».proof.Proof.Gen.ReferenceIdeal.Read
import proofs.«108823_j20298015441388_2_alg».proof.Proof.DenseSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's result stage is the dense layer of the spec, as whole arrays. -/
theorem stage_eq_dense (x0 : (⟨S262144x128, .f32⟩ : BufTy).Contents (Elt Ideal))
    (x1 : (⟨S128x128, .f32⟩ : BufTy).Contents (Elt Ideal)) (x2 : (⟨S128, .f32⟩ : BufTy).Contents (Elt Ideal)) :
    val_main_v4 (F := Ideal) x0 x1 x2 = Cert.DenseSpec.dense x0 x1 x2 := by
  funext i
  have el : ∀ k : Fin 128, lidx_main_v1 i k = ix2 (i 0) k := fun k =>
    funext fun a => Fin.ext (by match a with | ⟨0, _⟩ => rfl | ⟨1, _⟩ => rfl)
  have er : ∀ k : Fin 128, ridx_main_v1 i k = ix2 k (i 1) := fun k =>
    funext fun a => Fin.ext (by match a with | ⟨0, _⟩ => rfl | ⟨1, _⟩ => rfl)
  have eb : idx_main_v2 (idx_main_v3 i) = ix1 (i 1) :=
    funext fun a => Fin.ext (by match a with | ⟨0, _⟩ => rfl)
  rw [val_main_v4_apply, val_main_v1_apply, val_main_v3_apply, val_main_v2_apply]
  simp only [el, er, eb, val_main_v0_apply, Ideal.hostUnary_sign_def, Ideal.addf_def]
  rfl

end Cert.ReferenceIdeal.RefValue

end
-- ==== Proof.lean ====
/-
  A dense layer with ternary weights: the kernel and its jnp reference both compute, on the extended reals,

      out[r, c] = (Σ_k x[r, k] · sign(w[k, c])) + b[c]        r < 262144, c < 128, k < 128.

  The kernel walks 16 grid points; at each it stages 16384 rows of `x`, the whole weights and bias, forms the signs of
  the weights by a select chain (the entry itself where it is zero, else -1 below zero and 1 above), and in 8 trips of
  2048 rows multiplies the rows by the signed weights into a zero accumulator and adds the bias row. The reference
  applies the host's `sign`, one 262144 × 128 by 128 × 128 contraction and a broadcast bias. On the extended reals the
  select chain is the order's sign at every value, the infinities included; rounding to bf16 is the identity; a product
  into a zero accumulator is the plain sum; and tiling the rows by 2048 inside 16384 inside 262144 changes no entry,
  since each entry's sum runs over the same 128 terms. No law that needs finite inputs is used, so the precondition is
  never opened.

  The three frames are the generated ones (the reference's is its generated run with the result dropped); the one
  ledger entry, the sign-bit read printed as a comparison with zero, is that rule's statement; and the algebraic claim
  sets the kernel's run (Proof/KernelDense.lean) beside the reference's run (Proof/RefDense.lean), both ending at the
  same function `Cert.DenseSpec.dense` of the arguments.
-/
import proofs.«108823_j20298015441388_2_alg».proof.Defs
import proofs.«108823_j20298015441388_2_alg».proof.Proof.Gen.Kernel
import proofs.«108823_j20298015441388_2_alg».proof.Proof.Gen.Kernel.Skeleton
import proofs.«108823_j20298015441388_2_alg».proof.Proof.Gen.Kernel.Loops
import proofs.«108823_j20298015441388_2_alg».proof.Proof.Gen.Kernel.Launch
import proofs.«108823_j20298015441388_2_alg».proof.Proof.Gen.Kernel.Points
import proofs.«108823_j20298015441388_2_alg».proof.Proof.Gen.Kernel.Frame
import proofs.«108823_j20298015441388_2_alg».proof.Proof.Gen.KernelIdeal
import proofs.«108823_j20298015441388_2_alg».proof.Proof.Gen.KernelIdeal.Skeleton
import proofs.«108823_j20298015441388_2_alg».proof.Proof.Gen.KernelIdeal.Loops
import proofs.«108823_j20298015441388_2_alg».proof.Proof.Gen.KernelIdeal.Launch
import proofs.«108823_j20298015441388_2_alg».proof.Proof.Gen.KernelIdeal.Points
import proofs.«108823_j20298015441388_2_alg».proof.Proof.Gen.KernelIdeal.Frame
import proofs.«108823_j20298015441388_2_alg».proof.Proof.Gen.ReferenceIdeal
import proofs.«108823_j20298015441388_2_alg».proof.Proof.Gen.Pre_finite_inputs
import proofs.«108823_j20298015441388_2_alg».proof.Proof.Gen.KernelIdeal.Value
import proofs.«108823_j20298015441388_2_alg».proof.Proof.Gen.ReferenceIdeal.Run
import proofs.«108823_j20298015441388_2_alg».proof.Proof.Gen.ReferenceIdeal.Read
import proofs.«108823_j20298015441388_2_alg».proof.Proof.KernelDense
import proofs.«108823_j20298015441388_2_alg».proof.Proof.RefDense
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's five host operations run and write only their own results. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: 1.0 carrying the weights' sign bit, read as -1 below zero and 1 otherwise. -/
theorem preserves : Cert.preserves_Kernel_KernelIdeal :=
  IdealRules.sign_bit.statement Cert.KernelIdeal.S128x128 .f32

/-- Both programs end with the dense layer of signed weights of the (agreeing) arguments. -/
theorem algebraic : Cert.algebraic_KernelIdeal_ReferenceIdeal := by
  intro m ρ m' ρ' _ hagree
  refine ⟨fun c => Cert.DenseSpec.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.DenseValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.ReferenceIdeal.RefValue.stage_eq_dense,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
